-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S128x256 : Shape := ⟨2, ![128, 256]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x256 .f32) (main_arg1 : IVec S2x1600000 32) (main_arg2 : FVec F S128x256 .f32) (main_arg3 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x256 : Shape := ⟨2, ![50000, 256]⟩
abbrev S2x1600000 : Shape := ⟨2, ![2, 1600000]⟩
abbrev S128x256 : Shape := ⟨2, ![128, 256]⟩
abbrev S128 : Shape := ⟨1, ![128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x1 : Shape := ⟨2, ![50000, 1]⟩
abbrev S50000x128 : Shape := ⟨2, ![50000, 128]⟩
abbrev S5000x256 : Shape := ⟨2, ![5000, 256]⟩
abbrev S5000x1 : Shape := ⟨2, ![5000, 1]⟩
abbrev S5000x128 : Shape := ⟨2, ![5000, 128]⟩
abbrev S1x128 : Shape := ⟨2, ![1, 128]⟩
abbrev S1650000x128 : Shape := ⟨2, ![1650000, 128]⟩

abbrev nBuf : Space → Nat
  | .hbm => 39
  | .vmem => 8
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S128x256, .f32⟩
  | .hbm, ⟨3, _⟩ => ⟨S128, .f32⟩
  | .hbm, ⟨4, _⟩ => ⟨S50000, .i32⟩
  | .hbm, ⟨5, _⟩ => ⟨S1x1600000, .i32⟩
  | .hbm, ⟨6, _⟩ => ⟨S1600000, .i32⟩
  | .hbm, ⟨7, _⟩ => ⟨S1650000, .i32⟩
  | .hbm, ⟨8, _⟩ => ⟨S1x1600000, .i32⟩
  | .hbm, ⟨9, _⟩ => ⟨S1600000, .i32⟩
  | .hbm, ⟨10, _⟩ => ⟨S1650000, .i32⟩
  | .hbm, ⟨11, _⟩ => ⟨S_, .f32⟩
  | .hbm, ⟨12, _⟩ => ⟨S1650000, .f32⟩
  | .hbm, ⟨13, _⟩ => ⟨S_, .f32⟩
  | .hbm, ⟨14, _⟩ => ⟨S50000, .f32⟩
  | .hbm, ⟨15, _⟩ => ⟨S1650000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S50000x128, .bf16⟩
  | .hbm, ⟨22, _⟩ => ⟨S_, .i32⟩
  | .hbm, ⟨23, _⟩ => ⟨S1650000, .i32⟩
  | .hbm, ⟨24, _⟩ => ⟨S1650000, .i1⟩
  | .hbm, ⟨25, _⟩ => ⟨S_, .i32⟩
  | .hbm, ⟨26, _⟩ => ⟨S1650000, .i32⟩
  | .hbm, ⟨27, _⟩ => ⟨S1650000, .i32⟩
  | .hbm, ⟨28, _⟩ => ⟨S1650000, .i32⟩
  | .hbm, ⟨29, _⟩ => ⟨S1650000x1, .i32⟩
  | .hbm, ⟨30, _⟩ => ⟨S1650000x128, .bf16⟩
  | .hbm, ⟨31, _⟩ => ⟨S1650000x128, .f32⟩
  | .hbm, ⟨32, _⟩ => ⟨S_, .f32⟩
  | .hbm, ⟨33, _⟩ => ⟨S50000x128, .f32⟩
  | .hbm, ⟨34, _⟩ => ⟨S1650000x1, .i32⟩
  | .hbm, ⟨35, _⟩ => ⟨S50000x128, .f32⟩
  | .hbm, ⟨36, _⟩ => ⟨S50000x1, .f32⟩
  | .hbm, ⟨37, _⟩ => ⟨S50000x128, .f32⟩
  | .hbm, ⟨38, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S128x256, .f32⟩
  | .local _ .vmem, ⟨3, _⟩ => ⟨S128, .f32⟩
  | .local _ .vmem, ⟨4, _⟩ => ⟨S5000x1, .f32⟩
  | .local _ .vmem, ⟨5, _⟩ => ⟨S5000x1, .f32⟩
  | .local _ .vmem, ⟨6, _⟩ => ⟨S5000x128, .bf16⟩
  | .local _ .vmem, ⟨7, _⟩ => ⟨S5000x128, .bf16⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  scatter_S50000_S1650000x1_S1650000_n_0_0_1_wf : ScatterDims.WF S50000 S1650000x1 S1650000 [] [0] [0] 1
  dot_S5000x256_S128x256_S5000x128_1_1_0_0_n_n_wf : DotDims.WF S5000x256 S128x256 S5000x128 [1] [1] [0] [0] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .f32 = 32 ∨ (Rect.block (s := S50000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .bf16 = 32 ∨ (Rect.block (s := S50000x128) S5000x128.size (cc0_transform_4 i) (hinb0_4 i)).WholeWords (EltTy.packing .bf16)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S5000x256_S128x256_S5000x128_1_1_0_0_n_n : DotDims S5000x256 S128x256 S5000x128 where
  lhsContracting := [1]
  rhsContracting := [1]
  lhsNonContracting := [0]
  rhsNonContracting := [0]
  lhsBatch := []
  rhsBatch := []
  wf := dot_S5000x256_S128x256_S5000x128_1_1_0_0_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S128x256 : Shape := ⟨2, ![128, 256]⟩
abbrev S128 : Shape := ⟨1, ![128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S50000x128 : Shape := ⟨2, ![50000, 128]⟩
abbrev S1x128 : Shape := ⟨2, ![1, 128]⟩
abbrev S_ : Shape := ⟨0, ![]⟩
abbrev S1650000x1 : Shape := ⟨2, ![1650000, 1]⟩
abbrev S1650000x128 : Shape := ⟨2, ![1650000, 128]⟩

abbrev nBuf : Space → Nat
  | .hbm => 59
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S128x256, .f32⟩
  | .hbm, ⟨3, _⟩ => ⟨S128, .f32⟩
  | .hbm, ⟨4, _⟩ => ⟨S50000, .i32⟩
  | .hbm, ⟨5, _⟩ => ⟨S1x1600000, .i32⟩
  | .hbm, ⟨6, _⟩ => ⟨S1600000, .i32⟩
  | .hbm, ⟨7, _⟩ => ⟨S1650000, .i32⟩
  | .hbm, ⟨8, _⟩ => ⟨S1x1600000, .i32⟩
  | .hbm, ⟨9, _⟩ => ⟨S1600000, .i32⟩
  | .hbm, ⟨10, _⟩ => ⟨S1650000, .i32⟩
  | .hbm, ⟨11, _⟩ => ⟨S50000x128, .f32⟩
  | .hbm, ⟨12, _⟩ => ⟨S1x128, .f32⟩
  | .hbm, ⟨13, _⟩ => ⟨S50000x128, .f32⟩
  | .hbm, ⟨14, _⟩ => ⟨S50000x128, .f32⟩
  | .hbm, ⟨15, _⟩ => ⟨S_, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S1650000, .i32⟩
  | .hbm, ⟨26, _⟩ => ⟨S1650000, .i1⟩
  | .hbm, ⟨27, _⟩ => ⟨S_, .i32⟩
  | .hbm, ⟨28, _⟩ => ⟨S1650000, .i32⟩
  | .hbm, ⟨29, _⟩ => ⟨S1650000, .i32⟩
  | .hbm, ⟨30, _⟩ => ⟨S1650000, .i32⟩
  | .hbm, ⟨31, _⟩ => ⟨S1650000x1, .i32⟩
  | .hbm, ⟨32, _⟩ => ⟨S1650000, .f32⟩
  | .hbm, ⟨33, _⟩ => ⟨S_, .i32⟩
  | .hbm, ⟨34, _⟩ => ⟨S1650000, .i32⟩
  | .hbm, ⟨35, _⟩ => ⟨S1650000, .i1⟩
  | .hbm, ⟨36, _⟩ => ⟨S_, .i32⟩
  | .hbm, ⟨37, _⟩ => ⟨S1650000, .i32⟩
  | .hbm, ⟨38, _⟩ => ⟨S1650000, .i32⟩
  | .hbm, ⟨39, _⟩ => ⟨S1650000, .i32⟩
  | .hbm, ⟨40, _⟩ => ⟨S1650000x1, .i32⟩
  | .hbm, ⟨41, _⟩ => ⟨S1650000, .f32⟩
  | .hbm, ⟨42, _⟩ => ⟨S1650000, .f32⟩
  | .hbm, ⟨43, _⟩ => ⟨S1650000x1, .f32⟩
  | .hbm, ⟨44, _⟩ => ⟨S_, .i32⟩
  | .hbm, ⟨45, _⟩ => ⟨S1650000, .i32⟩
  | .hbm, ⟨46, _⟩ => ⟨S1650000, .i1⟩
  | .hbm, ⟨47, _⟩ => ⟨S_, .i32⟩
  | .hbm, ⟨48, _⟩ => ⟨S1650000, .i32⟩
  | .hbm, ⟨49, _⟩ => ⟨S1650000, .i32⟩
  | .hbm, ⟨50, _⟩ => ⟨S1650000, .i32⟩
  | .hbm, ⟨51, _⟩ => ⟨S1650000x1, .i32⟩
  | .hbm, ⟨52, _⟩ => ⟨S1650000x128, .f32⟩
  | .hbm, ⟨53, _⟩ => ⟨S1650000x128, .f32⟩
  | .hbm, ⟨54, _⟩ => ⟨S1650000x128, .f32⟩
  | .hbm, ⟨55, _⟩ => ⟨S_, .f32⟩
  | .hbm, ⟨56, _⟩ => ⟨S50000x128, .f32⟩
  | .hbm, ⟨57, _⟩ => ⟨S1650000x1, .i32⟩
  | .hbm, ⟨58, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  dot_S50000x256_S128x256_S50000x128_1_1_0_0_n_n_wf : DotDims.WF S50000x256 S128x256 S50000x128 [1] [1] [0] [0] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1

variable [Facts₀]

def dot_S50000x256_S128x256_S50000x128_1_1_0_0_n_n : DotDims S50000x256 S128x256 S50000x128 where
  lhsContracting := [1]
  rhsContracting := [1]
  lhsNonContracting := [0]
  rhsNonContracting := [0]
  lhsBatch := []
  rhsBatch := []
  wf := dot_S50000x256_S128x256_S50000x128_1_1_0_0_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

class Facts : Prop extends Facts₀ where

variable [Facts]
-- ==== Proof.KernelSpec.lean ====
/-
  What the kernel's program computes, as one function of the four argument arrays, written over the program's own
  shapes and dimension records and nothing else of it.

  The edge list is read as two index vectors of length E + N: the destination rows (`rowIdx`) and the source columns
  (`colIdx`), each the edge list's row followed by the self loops 0 … N − 1. A node's degree is the count of the entries
  of `rowIdx` that land on it (a scatter of ones onto zeros) and its factor d is the degree to the power −1/2
  (`degFactor`). The region projects every node, `scaledProj`: entry (n, c) is ((∑ₖ x[n, k] · W[c, k]) + b[c]) · d[n].
  After it (`aggregate`) the projected rows are gathered at the source columns (a negative column wrapped by N), summed
  onto their destination rows, and row n of the sum is scaled by d[n] once more.
-/
import proofs.«153980_j84043920048429_2_alg».proof.Proof.Gen.KernelIdeal
import Idealize.ShloMosaic.Lib.ValueIdx
import Idealize.ShloMosaic.PureOps.Ideal.Laws

noncomputable section

open Idealize.ShloMosaic Idealize.ShloMosaic.ValueIdx

namespace Cert.KernelIdeal.Proj

open Cert.KernelIdeal Cert.KernelIdeal.Gen

/-- The region's result, entry by entry: node n's projected features plus the bias, times node n's factor. -/
def scaledProj (X : S50000x256.Idx → EReal) (Wt : S128x256.Idx → EReal) (B : S128.Idx → EReal) (Dc : S50000x1.Idx → EReal) :
    S50000x128.Idx → EReal := fun j =>
  ((∑ k : Fin 256, X (ix2 (j 0) k) * Wt (ix2 (j 1) k)) + B (ix1 (j 1))) * Dc (ix2 (j 0) (0 : Fin 1))

variable (E : (⟨S2x1600000, .i32⟩ : BufTy).Contents (Elt Ideal))

/-- Destination rows: row 0 of the edge list, then the self loops. -/
def rowIdx : (⟨S1650000, .i32⟩ : BufTy).Contents (Elt Ideal) :=
  concatenate S1650000 0
    [⟨S1600000, shapeCast S1600000 (extractStridedSlice S1x1600000 ![0, 0] E slices_S2x1600000_S1x1600000_0_0)
        shapeCasts_S1x1600000_S1600000⟩,
      ⟨S50000, iotaInDim S50000 32 0⟩]
    concatenates_S1600000_S50000_S1650000_d0

/-- Source columns: row 1 of the edge list, then the self loops. -/
def colIdx : (⟨S1650000, .i32⟩ : BufTy).Contents (Elt Ideal) :=
  concatenate S1650000 0
    [⟨S1600000, shapeCast S1600000 (extractStridedSlice S1x1600000 ![1, 0] E slices_S2x1600000_S1x1600000_1_0)
        shapeCasts_S1x1600000_S1600000⟩,
      ⟨S50000, iotaInDim S50000 32 0⟩]
    concatenates_S1600000_S50000_S1650000_d0

/-- A node's factor: its degree (ones scattered onto zeros along the destination rows) to the power −1/2. -/
def degFactor : (⟨S50000, .f32⟩ : BufTy).Contents (Elt Ideal) :=
  Host.powf
    (Host.scatterAdd scatter_S50000_S1650000x1_S1650000_n_0_0_1
      (broadcastInDim S50000 ![] bcast_S_S50000 (constant (F := Ideal) S_ .f32 0x00000000#32))
      (broadcastInDim S1650000x1 ![0] bcast_S1650000_S1650000x1_0 (rowIdx E))
      (broadcastInDim S1650000 ![] bcast_S_S1650000 (constant (F := Ideal) S_ .f32 0x3F800000#32)))
    (broadcastInDim S50000 ![] bcast_S_S50000 (constant (F := Ideal) S_ .f32 0xBF000000#32))

/-- The factors as a column, the form the region is handed. -/
def degColumn : (⟨S50000x1, .f32⟩ : BufTy).Contents (Elt Ideal) :=
  shapeCast S50000x1 (degFactor E) shapeCasts_S50000_S50000x1

/-- After the region: gather the projected rows at the source columns, sum them onto the destination rows, scale row n by d[n]. -/
def aggregate (P : (⟨S50000x128, .bf16⟩ : BufTy).Contents (Elt Ideal)) : (⟨S50000x128, .f32⟩ : BufTy).Contents (Elt Ideal) :=
  mulf
    (broadcastInDim S50000x128 ![0, 1] bcast_S50000x1_S50000x128_0_1
      (broadcastInDim S50000x1 ![0] bcast_S50000_S50000x1_0 (degFactor E)))
    (Host.scatterAdd scatter_S50000x128_S1650000x1_S1650000x128_1_0_0_1
      (broadcastInDim S50000x128 ![] bcast_S_S50000x128 (constant (F := Ideal) S_ .f32 0x00000000#32))
      (broadcastInDim S1650000x1 ![0] bcast_S1650000_S1650000x1_0 (rowIdx E))
      (extf .f32
        (Host.gather gather_S50000x128_S1650000x1_S1650000x128_1_0_n_n_0_1_1128 P
          (broadcastInDim S1650000x1 ![0] bcast_S1650000_S1650000x1_0
            (select
              (cmpi .slt (colIdx E) (broadcastInDim S1650000 ![] bcast_S_S1650000 (constantI S_ 32 0#32)))
              (addi (colIdx E) (broadcastInDim S1650000 ![] bcast_S_S1650000 (constantI S_ 32 50000#32)))
              (colIdx E))))
        bitsLt_bf16_f32))

/-- THE KERNEL'S RESULT as one function of the argument arrays x, the edge list, W and b. -/
def kernelOut (X : (⟨S50000x256, .f32⟩ : BufTy).Contents (Elt Ideal)) (Wt : (⟨S128x256, .f32⟩ : BufTy).Contents (Elt Ideal))
    (B : (⟨S128, .f32⟩ : BufTy).Contents (Elt Ideal)) : (⟨S50000x128, .f32⟩ : BufTy).Contents (Elt Ideal) :=
  aggregate E (scaledProj X Wt B (degColumn E))

end Cert.KernelIdeal.Proj

end
-- ==== Proof.KernelBlock.lean ====
/-
  The kernel's region, read as values. One grid point computes, for 5000 nodes at a time, the node's projected
  features scaled by the node's degree factor: entry (p, q) of a block is
  ((∑ₖ x[p, k] · W[q, k]) + b[q]) · d[p, 0], the matrix product into a zero accumulator, the bias row spread down
  the rows, the factor column spread along the columns (the narrowing to 16 bits is the identity on the extended
  reals). `scaledProj` is the same formula over whole arrays, node by node; the index maps of the ten grid
  points are decided here once.
-/
import proofs.«153980_j84043920048429_2_alg».proof.Proof.Gen.KernelIdeal.Frame
import proofs.«153980_j84043920048429_2_alg».proof.Proof.KernelSpec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Proj

open Cert.KernelIdeal Cert.KernelIdeal.Gen

/-! ## One block -/

theorem lhs_row (j : S5000x128.Idx) (q : dot_S5000x256_S128x256_S5000x128_1_1_0_0_n_n.contr.Idx) : (dot_S5000x256_S128x256_S5000x128_1_1_0_0_n_n.lhsIdx j q 0).val = (j 0).val := by
  unfold DotDims.lhsIdx
  rw [dif_neg (show ¬(0 : Fin S5000x256.rank) ∈ dot_S5000x256_S128x256_S5000x128_1_1_0_0_n_n.lhsBatch by decide),
    dif_pos (show (0 : Fin S5000x256.rank) ∈ dot_S5000x256_S128x256_S5000x128_1_1_0_0_n_n.lhsNonContracting by decide)]
  rfl
theorem lhs_contr (j : S5000x128.Idx) (q : dot_S5000x256_S128x256_S5000x128_1_1_0_0_n_n.contr.Idx) : (dot_S5000x256_S128x256_S5000x128_1_1_0_0_n_n.lhsIdx j q 1).val = (q ⟨0, by decide⟩).val :=
  dot_S5000x256_S128x256_S5000x128_1_1_0_0_n_n.lhsIdx_val_of_single rfl j q
theorem rhs_row (j : S5000x128.Idx) (q : dot_S5000x256_S128x256_S5000x128_1_1_0_0_n_n.contr.Idx) : (dot_S5000x256_S128x256_S5000x128_1_1_0_0_n_n.rhsIdx j q 0).val = (j 1).val := by
  unfold DotDims.rhsIdx
  rw [dif_neg (show ¬(0 : Fin S128x256.rank) ∈ dot_S5000x256_S128x256_S5000x128_1_1_0_0_n_n.rhsBatch by decide),
    dif_pos (show (0 : Fin S128x256.rank) ∈ dot_S5000x256_S128x256_S5000x128_1_1_0_0_n_n.rhsNonContracting by decide)]
  rfl
theorem rhs_contr (j : S5000x128.Idx) (q : dot_S5000x256_S128x256_S5000x128_1_1_0_0_n_n.contr.Idx) : (dot_S5000x256_S128x256_S5000x128_1_1_0_0_n_n.rhsIdx j q 1).val = (q ⟨0, by decide⟩).val :=
  dot_S5000x256_S128x256_S5000x128_1_1_0_0_n_n.rhsIdx_val_of_single rfl j q

/-- The block's matrix product, both factors contracted along their second axis, into the zero accumulator: entry
    (p, q) is the sum over k of x[p, k] · w[q, k]. -/
theorem mm_apply (x : FVec Ideal S5000x256 .bf16) (w : FVec Ideal S128x256 .bf16) (p : Fin 5000) (q : Fin 128) :
    matmul dot_S5000x256_S128x256_S5000x128_1_1_0_0_n_n none x w (constant (F := Ideal) S5000x128 .f32 0x00000000#32) (ix2 p q)
      = ∑ k : Fin 256, x (ix2 p k) * w (ix2 q k) := by
  show FloatOps.matmul dot_S5000x256_S128x256_S5000x128_1_1_0_0_n_n none x w (constant (F := Ideal) S5000x128 .f32 0x00000000#32) (ix2 p q) = _
  rw [Ideal.matmul_constant_zero_apply, ← Equiv.sum_comp (contrEquiv1 dot_S5000x256_S128x256_S5000x128_1_1_0_0_n_n 256 rfl rfl).symm]
  refine Finset.sum_congr rfl fun k _ => ?_
  have hk := contrEquiv1_symm_val dot_S5000x256_S128x256_S5000x128_1_1_0_0_n_n 256 rfl rfl k
  have el : dot_S5000x256_S128x256_S5000x128_1_1_0_0_n_n.lhsIdx (ix2 p q) ((contrEquiv1 dot_S5000x256_S128x256_S5000x128_1_1_0_0_n_n 256 rfl rfl).symm k) = ix2 p k := funext fun a => Fin.ext (by
    match a with
    | ⟨0, _⟩ => exact lhs_row _ _
    | ⟨1, _⟩ => exact (lhs_contr _ _).trans hk)
  have er : dot_S5000x256_S128x256_S5000x128_1_1_0_0_n_n.rhsIdx (ix2 p q) ((contrEquiv1 dot_S5000x256_S128x256_S5000x128_1_1_0_0_n_n 256 rfl rfl).symm k) = ix2 q k := funext fun a => Fin.ext (by
    match a with
    | ⟨0, _⟩ => exact rhs_row _ _
    | ⟨1, _⟩ => exact (rhs_contr _ _).trans hk)
  rw [el, er]

/-- The bias vector viewed as one row and spread down the block's rows reads, at (p, q), b[q]. -/
theorem bias_apply (b : FVec Ideal S128 .f32) (p : Fin 5000) (q : Fin 128) :
    broadcastTo S5000x128 (shapeCast S1x128 (shapeCast S1x128 b shapeCasts_S128_S1x128) shapeCasts_S1x128_S1x128)
      broadcasts_S1x128_S5000x128 (ix2 p q) = b (ix1 q) := by
  rw [shapeCast_self]
  refine (broadcastTo_apply _ broadcasts_S1x128_S5000x128 (ix2 p q) (ix2 (0 : Fin 1) q) fun a => ?_).trans ?_
  · match a with
    | ⟨0, _⟩ => show 0 = if (1 : Nat) = 1 then 0 else p.val; rw [if_pos rfl]
    | ⟨1, _⟩ => show q.val = if (128 : Nat) = 1 then 0 else q.val; rw [if_neg (by decide)]
  · refine shapeCast_apply b shapeCasts_S128_S1x128 _ _ ?_
    rw [Shape.rowMajor_val_one, Shape.rowMajor_val_two]
    show q.val = 0 * 128 + q.val
    omega

/-- The factor column spread along the block's columns reads, at (p, q), d[p, 0]. -/
theorem scale_apply (d : FVec Ideal S5000x1 .f32) (p : Fin 5000) (q : Fin 128) :
    broadcastTo S5000x128 (shapeCast S5000x1 d shapeCasts_S5000x1_S5000x1) broadcasts_S5000x1_S5000x128 (ix2 p q)
      = d (ix2 p (0 : Fin 1)) := by
  rw [shapeCast_self]
  refine broadcastTo_apply _ broadcasts_S5000x1_S5000x128 (ix2 p q) (ix2 p (0 : Fin 1)) fun a => ?_
  match a with
  | ⟨0, _⟩ => show p.val = if (5000 : Nat) = 1 then 0 else p.val; rw [if_neg (by decide)]
  | ⟨1, _⟩ => show 0 = if (1 : Nat) = 1 then 0 else q.val; rw [if_pos rfl]

/-- WHAT THE BODY STORES, entry by entry: the projected row plus the bias, times the row's factor. -/
theorem pay_apply (x0 : Vec Ideal S5000x256 .f32) (x1 : Vec Ideal S128x256 .f32) (x2 : Vec Ideal S128 .f32)
    (x3 : Vec Ideal S5000x1 .f32) (p : Fin 5000) (q : Fin 128) :
    k0_pay1 x0 x1 x2 x3 (ix2 p q)
      = ((∑ k : Fin 256, x0 (ix2 p k) * x1 (ix2 q k)) + x2 (ix1 q)) * x3 (ix2 p (0 : Fin 1)) := by
  unfold k0_pay1
  show (matmul dot_S5000x256_S128x256_S5000x128_1_1_0_0_n_n none (truncf .bf16 x0 bitsLt_bf16_f32) (truncf .bf16 x1 bitsLt_bf16_f32)
          (constant (F := Ideal) S5000x128 .f32 0x00000000#32) (ix2 p q)
        + broadcastTo S5000x128 (shapeCast S1x128 (shapeCast S1x128 x2 shapeCasts_S128_S1x128) shapeCasts_S1x128_S1x128)
            broadcasts_S1x128_S5000x128 (ix2 p q))
      * broadcastTo S5000x128 (shapeCast S5000x1 x3 shapeCasts_S5000x1_S5000x1) broadcasts_S5000x1_S5000x128 (ix2 p q) = _
  rw [mm_apply, bias_apply, scale_apply]
  rfl

/-- The same as an equation of blocks: if, entry by entry, the stored value is `G` read where the block sits in the
    array (`emb`), the stored block is `G` read through the block. -/
theorem pay_eq_read (x0 : Vec Ideal S5000x256 .f32) (x1 : Vec Ideal S128x256 .f32) (x2 : Vec Ideal S128 .f32)
    (x3 : Vec Ideal S5000x1 .f32) (G : S50000x128.Idx → EReal) (emb : S5000x128.Idx → S50000x128.Idx)
    (h : ∀ (p : Fin 5000) (q : Fin 128),
      ((∑ k : Fin 256, x0 (ix2 p k) * x1 (ix2 q k)) + x2 (ix1 q)) * x3 (ix2 p (0 : Fin 1)) = G (emb (ix2 p q))) :
    k0_pay1 x0 x1 x2 x3 = fun y => G (emb y) := by
  funext y
  obtain ⟨p, q, rfl⟩ : ∃ (p : Fin 5000) (q : Fin 128), y = ix2 p q := ⟨y 0, y 1, eq_ix2 y⟩
  rw [pay_apply]
  exact h p q

/-! ## From the blocks to the array -/

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The printed index maps over the ten points: the node blocks of x, of the factor column and of the result move
    together, point t at block t; the weights and the bias stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

end Cert.KernelIdeal.Proj

end
-- ==== Proof.KernelReads.lean ====
/-
  Where a grid point's blocks sit in their arrays. Point t of the ten works on nodes 5000 t … 5000 t + 4999: row p of
  its block of x, of the factor column and of the result is node 5000 t + p; the weight matrix and the bias vector
  are seen whole by every point. Each lemma reads one entry of a block as the entry of the array at that place.
-/
import proofs.«153980_j84043920048429_2_alg».proof.Proof.KernelBlock

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Proj

open Cert.KernelIdeal Cert.KernelIdeal.Gen

variable (m : (ℓ : Loc nD τ sig) → Buf (Elt Ideal) ℓ)

/-- Entry (p, k) of point t's block of x sits at node 5000 t + p, column k. -/
theorem emb0_apply (t : Fin cfg0.N) (p : Fin 5000) (k : Fin 256) (n : Fin 50000) (hn : n.val = t.val * 5000 + p.val) :
    ((cfg0.win 0).blk t).view.emb (ix2 p k) = (ix2 n k : S50000x256.Idx) := by
  obtain ⟨e0, e1, -⟩ := idx_facts t
  funext a
  apply Fin.ext
  match a with
  | ⟨0, _⟩ => show win0_0.index t (0 : Fin 2) * 5000 + 1 * p.val = n.val; omega
  | ⟨1, _⟩ => show win0_0.index t (1 : Fin 2) * 256 + 1 * k.val = k.val; omega

/-- Entry (q, k) of any point's block of the weights is entry (q, k) of the weights. -/
theorem emb1_apply (t : Fin cfg0.N) (q : Fin 128) (k : Fin 256) :
    ((cfg0.win 1).blk t).view.emb (ix2 q k) = (ix2 q k : S128x256.Idx) := by
  obtain ⟨-, -, e2, e3, -⟩ := idx_facts t
  funext a
  apply Fin.ext
  match a with
  | ⟨0, _⟩ => show win0_1.index t (0 : Fin 2) * 128 + 1 * q.val = q.val; omega
  | ⟨1, _⟩ => show win0_1.index t (1 : Fin 2) * 256 + 1 * k.val = k.val; omega

/-- Entry q of any point's block of the bias is entry q of the bias. -/
theorem emb2_apply (t : Fin cfg0.N) (q : Fin 128) :
    ((cfg0.win 2).blk t).view.emb (ix1 q) = (ix1 q : S128.Idx) := by
  obtain ⟨-, -, -, -, e4, -⟩ := idx_facts t
  funext a
  apply Fin.ext
  match a with
  | ⟨0, _⟩ => show win0_2.index t (0 : Fin 1) * 128 + 1 * q.val = q.val; omega

/-- Entry (p, 0) of point t's block of the factor column sits at node 5000 t + p. -/
theorem emb3_apply (t : Fin cfg0.N) (p : Fin 5000) (n : Fin 50000) (hn : n.val = t.val * 5000 + p.val) :
    ((cfg0.win 3).blk t).view.emb (ix2 p (0 : Fin 1)) = (ix2 n (0 : Fin 1) : S50000x1.Idx) := by
  obtain ⟨-, -, -, -, -, e5, e6, -⟩ := idx_facts t
  funext a
  apply Fin.ext
  match a with
  | ⟨0, _⟩ => show win0_3.index t (0 : Fin 2) * 5000 + 1 * p.val = n.val; omega
  | ⟨1, _⟩ => show win0_3.index t (1 : Fin 2) * 1 + 1 * 0 = 0; omega

/-- Entry (p, q) of point t's block of the result sits at node 5000 t + p, column q. -/
theorem emb4_apply (t : Fin cfg0.N) (p : Fin 5000) (q : Fin 128) (n : Fin 50000) (hn : n.val = t.val * 5000 + p.val) :
    ((cfg0.win 4).blk t).view.emb (ix2 p q) = (ix2 n q : S50000x128.Idx) := by
  obtain ⟨-, -, -, -, -, -, -, e7, e8⟩ := idx_facts t
  funext a
  apply Fin.ext
  match a with
  | ⟨0, _⟩ => show win0_4.index t (0 : Fin 2) * 5000 + 1 * p.val = n.val; omega
  | ⟨1, _⟩ => show win0_4.index t (1 : Fin 2) * 128 + 1 * q.val = q.val; omega

/-! The blocks read off ANY contents `W` of the arrays: where a block's entry sits does not depend on what the arrays hold. -/

variable (c : Dev nD) (W : (b : Ref sig .tc) → Buf (Elt Ideal) ((c : Thread nD τ).loc b))

/-- Row p of point t's block of x is node 5000 t + p. -/
theorem read0 (t : Fin cfg0.N) (p : Fin 5000) (k : Fin 256) (n : Fin 50000) (hn : n.val = t.val * 5000 + p.val) :
    (((cfg0.win 0).blk t).view.read (Elt Ideal) (W (Pipeline.arrRef spec0 0)) : Vec Ideal S5000x256 .f32) (ix2 p k)
      = (W main_arg0 : S50000x256.Idx → EReal) (ix2 n k) := by
  show W main_arg0 (((cfg0.win 0).blk t).view.emb (ix2 p k)) = W main_arg0 (ix2 n k)
  rw [emb0_apply t p k n hn]

/-- Every point sees the whole weight matrix. -/
theorem read1 (t : Fin cfg0.N) (q : Fin 128) (k : Fin 256) :
    (((cfg0.win 1).blk t).view.read (Elt Ideal) (W (Pipeline.arrRef spec0 1)) : Vec Ideal S128x256 .f32) (ix2 q k)
      = (W main_arg2 : S128x256.Idx → EReal) (ix2 q k) := by
  show W main_arg2 (((cfg0.win 1).blk t).view.emb (ix2 q k)) = W main_arg2 (ix2 q k)
  rw [emb1_apply t q k]

/-- Every point sees the whole bias vector. -/
theorem read2 (t : Fin cfg0.N) (q : Fin 128) :
    (((cfg0.win 2).blk t).view.read (Elt Ideal) (W (Pipeline.arrRef spec0 2)) : Vec Ideal S128 .f32) (ix1 q)
      = (W main_arg3 : S128.Idx → EReal) (ix1 q) := by
  show W main_arg3 (((cfg0.win 2).blk t).view.emb (ix1 q)) = W main_arg3 (ix1 q)
  rw [emb2_apply t q]

/-- Row p of point t's block of the factor column is node 5000 t + p. -/
theorem read3 (t : Fin cfg0.N) (p : Fin 5000) (n : Fin 50000) (hn : n.val = t.val * 5000 + p.val) :
    (((cfg0.win 3).blk t).view.read (Elt Ideal) (W (Pipeline.arrRef spec0 3)) : Vec Ideal S5000x1 .f32) (ix2 p (0 : Fin 1))
      = (W main_v13 : S50000x1.Idx → EReal) (ix2 n (0 : Fin 1)) := by
  show W main_v13 (((cfg0.win 3).blk t).view.emb (ix2 p (0 : Fin 1))) = W main_v13 (ix2 n (0 : Fin 1))
  rw [emb3_apply t p n hn]

/-! The region's own blocks: the instance `W := V m c`, the arrays as the region finds them. -/

theorem iblk0_apply (t : Fin cfg0.N) (p : Fin 5000) (k : Fin 256) (n : Fin 50000) (hn : n.val = t.val * 5000 + p.val) :
    iblk m c 0 t (ix2 p k) = V m c main_arg0 (ix2 n k) := read0 c (V m c) t p k n hn

theorem iblk1_apply (t : Fin cfg0.N) (q : Fin 128) (k : Fin 256) :
    iblk m c 1 t (ix2 q k) = V m c main_arg2 (ix2 q k) := read1 c (V m c) t q k

theorem iblk2_apply (t : Fin cfg0.N) (q : Fin 128) :
    iblk m c 2 t (ix1 q) = V m c main_arg3 (ix1 q) := read2 c (V m c) t q

theorem iblk3_apply (t : Fin cfg0.N) (p : Fin 5000) (n : Fin 50000) (hn : n.val = t.val * 5000 + p.val) :
    iblk m c 3 t (ix2 p (0 : Fin 1)) = V m c main_v13 (ix2 n (0 : Fin 1)) := read3 c (V m c) t p n hn

end Cert.KernelIdeal.Proj

end
-- ==== Proof.KernelArray.lean ====
/-
  From the ten blocks to the array. What point t writes back is block t of the one whole-array function `scaledProj`
  of the arrays the region finds: entry (p, q) of the block is node 5000 t + p, channel q, and every input block is
  read at that same node. The ten blocks tile the 50000 rows (node n is in block n / 5000), so the array the region
  leaves is `scaledProj` everywhere.
-/
import proofs.«153980_j84043920048429_2_alg».proof.Proof.KernelReads

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Proj

open Cert.KernelIdeal Cert.KernelIdeal.Gen

/-- `scaledProj` at node n, channel q. -/
theorem scaledProj_apply (X : S50000x256.Idx → EReal) (Wt : S128x256.Idx → EReal) (B : S128.Idx → EReal)
    (Dc : S50000x1.Idx → EReal) (n : Fin 50000) (q : Fin 128) :
    scaledProj X Wt B Dc (ix2 n q)
      = ((∑ k : Fin 256, X (ix2 n k) * Wt (ix2 q k)) + B (ix1 q)) * Dc (ix2 n (0 : Fin 1)) := rfl

/-- One entry of what the body stores, from the four block reads: if row p of the x block is node n's row, the weight
    and bias blocks are the weights and the bias, and row p of the factor block is node n's factor, the stored entry
    (p, q) is `scaledProj` at node n, channel q. -/
theorem entry_of_reads (x0 : Vec Ideal S5000x256 .f32) (x1 : Vec Ideal S128x256 .f32) (x2 : Vec Ideal S128 .f32)
    (x3 : Vec Ideal S5000x1 .f32) (X : S50000x256.Idx → EReal) (Wt : S128x256.Idx → EReal) (B : S128.Idx → EReal)
    (Dc : S50000x1.Idx → EReal) (p : Fin 5000) (q : Fin 128) (n : Fin 50000)
    (h0 : ∀ k : Fin 256, x0 (ix2 p k) = X (ix2 n k)) (h1 : ∀ k : Fin 256, x1 (ix2 q k) = Wt (ix2 q k))
    (h2 : x2 (ix1 q) = B (ix1 q)) (h3 : x3 (ix2 p (0 : Fin 1)) = Dc (ix2 n (0 : Fin 1))) :
    ((∑ k : Fin 256, x0 (ix2 p k) * x1 (ix2 q k)) + x2 (ix1 q)) * x3 (ix2 p (0 : Fin 1))
      = scaledProj X Wt B Dc (ix2 n q) := by
  rw [scaledProj_apply, h2, h3, Finset.sum_congr rfl fun k _ => by rw [h0 k, h1 k]]

/-- One block, with nothing about where its inputs came from: if the stored entries are `G` read where the block
    sits in the array, what the point writes back is block t of `G`. -/
theorem block_eq (x0 : Vec Ideal S5000x256 .f32) (x1 : Vec Ideal S128x256 .f32) (x2 : Vec Ideal S128 .f32)
    (x3 : Vec Ideal S5000x1 .f32) (G : S50000x128.Idx → EReal) (t : Fin cfg0.N)
    (h : ∀ (p : Fin 5000) (q : Fin 128),
      ((∑ k : Fin 256, x0 (ix2 p k) * x1 (ix2 q k)) + x2 (ix1 q)) * x3 (ix2 p (0 : Fin 1))
        = G (((cfg0.win 4).blk t).view.emb (ix2 p q))) :
    (cfg0.win 4).cut (grid0.coords t) (out0_4 x0 x1 x2 x3) = ((cfg0.win 4).blk t).view.read (Elt Ideal) G := by
  unfold out0_4
  rw [View.canon_unit_zero hz2]
  simp only [View.ld_unit_zero (S := S5000x256) hz2, View.ld_unit_zero (S := S128x256) hz2,
    View.ld_unit_zero (S := S128) hz1, View.ld_unit_zero (S := S5000x1) hz2]
  exact pay_eq_read x0 x1 x2 x3 G (((cfg0.win 4).blk t).view.emb) h

variable (m : (ℓ : Loc nD τ sig) → Buf (Elt Ideal) ℓ)

/-- WHAT POINT t WRITES BACK is block t of the one whole-array function. -/
theorem flushed_eq (c : Dev nD) (t : Fin cfg0.N) :
    (dats m 0 c).flushed 4 t = ((cfg0.win 4).blk t).view.read (Elt Ideal)
      (scaledProj (V m c main_arg0) (V m c main_arg2) (V m c main_arg3) (V m c main_v13)) := by
  show (cfg0.win 4).cut (grid0.coords t) ((dats m 0 c).after 4 t) = _
  rw [after0_4]
  refine block_eq (iblk m c 0 t) (iblk m c 1 t) (iblk m c 2 t) (iblk m c 3 t)
    (scaledProj (V m c main_arg0) (V m c main_arg2) (V m c main_arg3) (V m c main_v13)) t (fun p q => ?_)
  have ht : t.val < 10 := by have h := t.isLt; have hN : cfg0.N = 10 := N_0; omega
  have hn : t.val * 5000 + p.val < 50000 := by have := p.isLt; omega
  rw [emb4_apply t p q ⟨t.val * 5000 + p.val, hn⟩ rfl]
  exact entry_of_reads (iblk m c 0 t) (iblk m c 1 t) (iblk m c 2 t) (iblk m c 3 t)
    (V m c main_arg0) (V m c main_arg2) (V m c main_arg3) (V m c main_v13) p q ⟨t.val * 5000 + p.val, hn⟩
    (fun k => iblk0_apply m c t p k ⟨t.val * 5000 + p.val, hn⟩ rfl) (fun k => iblk1_apply m c t q k)
    (iblk2_apply m c t q) (iblk3_apply m c t p ⟨t.val * 5000 + p.val, hn⟩ rfl)

/-- An index of the array is in point t's block iff each coordinate is in the block's range on its axis. -/
theorem mem_blk (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v14).slice (win0_4.rect t)).set ↔ _
  rw [View.set_slice_whole, Rect.mem_set_unit]
  exact Iff.rfl

/-- Every node's row is in the block of the point numbered by the node's block of 5000. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, e7, e8⟩ := idx_facts t
  have e7' : win0_4.index t (0 : Fin 2) = (i 0).val / 5000 := e7
  refine ⟨t, flush0_4 t, ?_⟩
  rw [mem_blk]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 128 ≤ (i 1).val ∧ (i 1).val < win0_4.index t (1 : Fin 2) * 128 + 128
    omega

/-- THE ARRAY the region leaves: the one function of the arrays it found. -/
theorem final_proj (c : Dev nD) : (dats m 0 c).arrAt 4 cfg0.N
    = scaledProj (V m c main_arg0) (V m c main_arg2) (V m c main_arg3) (V m c main_v13) :=
  (dats m 0 c).arrAt_eq_of_cover 4 (scaledProj (V m c main_arg0) (V m c main_arg2) (V m c main_arg3) (V m c main_v13))
    (fun t _ => flushed_eq m c t) cover

end Cert.KernelIdeal.Proj

end
-- ==== Proof.KernelTail.lean ====
/-
  The kernel's program around its region. Before the region the host lines compute, from the edge list alone, the
  destination rows, the source columns and the degree factors (`rowIdx`, `colIdx`, `degFactor`, `degColumn`); the
  region leaves `scaledProj` of x, W, b and the factor column; the host lines after it gather, sum and scale
  (`aggregate`). So every weakly fair execution ends with the result array at `kernelOut` of the four argument arrays,
  and the argument arrays as they were.
-/
import proofs.«153980_j84043920048429_2_alg».proof.Proof.KernelArray
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Proj

open Cert.KernelIdeal Cert.KernelIdeal.Gen

variable (m : (ℓ : Loc nD τ sig) → Buf (Elt Ideal) ℓ) (ρ : Dev nD → PrngReg)

/-! ## What the host lines before the region leave -/

set_option maxHeartbeats 2000000 in
/-- The destination rows. -/
theorem host_rows (c : Dev nD) :
    (V0 m c (Proc.devRef .tc main_v3) : (⟨S1650000, .i32⟩ : BufTy).Contents (Elt Ideal))
      = rowIdx (m ((c : Thread nD τ).loc main_arg1)) := by
  show StableHlo.after hostOps0 (fun b => m (c, b)) (Proc.devRef .tc main_v3) = _
  after_results
  rfl

set_option maxHeartbeats 2000000 in
/-- The source columns. -/
theorem host_cols (c : Dev nD) :
    (V0 m c (Proc.devRef .tc main_v6) : (⟨S1650000, .i32⟩ : BufTy).Contents (Elt Ideal))
      = colIdx (m ((c : Thread nD τ).loc main_arg1)) := by
  show StableHlo.after hostOps0 (fun b => m (c, b)) (Proc.devRef .tc main_v6) = _
  after_results
  rfl

set_option maxHeartbeats 2000000 in
/-- The degree factors. -/
theorem host_deg (c : Dev nD) :
    (V0 m c (Proc.devRef .tc main_v12) : (⟨S50000, .f32⟩ : BufTy).Contents (Elt Ideal))
      = degFactor (m ((c : Thread nD τ).loc main_arg1)) := by
  show StableHlo.after hostOps0 (fun b => m (c, b)) (Proc.devRef .tc main_v12) = _
  after_results
  rfl

set_option maxHeartbeats 2000000 in
/-- The degree factors as the column the region is handed. -/
theorem host_degColumn (c : Dev nD) :
    (V m c main_v13 : (⟨S50000x1, .f32⟩ : BufTy).Contents (Elt Ideal))
      = degColumn (m ((c : Thread nD τ).loc main_arg1)) := by
  show StableHlo.after hostOps0 (fun b => m (c, b)) (Proc.devRef .tc main_v13) = _
  after_results
  rfl

/-! ## The host lines after the region -/

/-- The array the region wrote is what the later lines read at it. -/
theorem tail_reads_region (c : Dev nD) :
    Pipeline.withArrays (cfgs 0).spec c (V0 m c) (fun w => (dats m 0 c).arrAt w (cfgs 0).N) (Proc.devRef .tc main_v14)
      = (dats m 0 c).arrAt 4 cfg0.N :=
  Pipeline.withArrays_arr spec0 launch0.win.arr_inj c _ _ 4

set_option maxHeartbeats 4000000 in
/-- THE RESULT the host lines after the region leave: `kernelOut` of the argument arrays. -/
theorem tail_eq (c : Dev nD) :
    (Pipeline.afterTail₀ cfgs (dats m) 0 (V0 m) [hostOps1] c main_v28 : (⟨S50000x128, .f32⟩ : BufTy).Contents (Elt Ideal))
      = kernelOut (m ((c : Thread nD τ).loc main_arg1)) (m ((c : Thread nD τ).loc main_arg0))
          (m ((c : Thread nD τ).loc main_arg2)) (m ((c : Thread nD τ).loc main_arg3)) := by
  unfold Pipeline.afterTail₀
  show StableHlo.after hostOps1 _ (Proc.devRef .tc main_v28) = _
  after_results
  rw [Pipeline.withArrays_of_ne _ c (V0 m c) _ main_v12 (by exact (by decide : ∀ w, Pipeline.arrRef spec0 w ≠ main_v12)),
    Pipeline.withArrays_of_ne _ c (V0 m c) _ main_v3 (by exact (by decide : ∀ w, Pipeline.arrRef spec0 w ≠ main_v3)),
    Pipeline.withArrays_of_ne _ c (V0 m c) _ main_v6 (by exact (by decide : ∀ w, Pipeline.arrRef spec0 w ≠ main_v6)),
    tail_reads_region m c, host_rows m c, host_cols m c, host_deg m c, final_proj m c, host_degColumn m c,
    V_main_arg0 m c, V_main_arg2 m c, V_main_arg3 m c]
  rfl

/-! ## The run -/

/-- Every weakly fair execution of the kernel's program ends with its result at `kernelOut` of the argument arrays,
    and those unchanged. -/
theorem run_value : θ_run defs (onTc (τ := τ) (main (F := Ideal))) ⟨m, fun _ => 0, ρ⟩ (fun r => ∀ c : Dev nD,
      r.2.mem ((c.tc : Thread nD τ).loc main_v28)
        = kernelOut (m ((c.tc : Thread nD τ).loc main_arg1)) (m ((c.tc : Thread nD τ).loc main_arg0))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v28 (Pipeline.mem_restRefs_of main_v28 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩)
    (run_main m ρ)

end Cert.KernelIdeal.Proj

end
-- ==== Proof.LibScatterGather.lean ====
/-
  Sums on the extended reals scaled by a non-negative real number, the degree-to-the-power value of a count, and
  three host layout operations read at an index: jnp's `x[idx]` gather of a rank-1 operand and of the rows of a
  rank-2 operand (the start index read signed and clamped into the operand), which operand row an update of a
  row scatter lands on (the start index read signed and NOT clamped: an update that lands is at its own row), and
  jnp's wrap of a negative index, which leaves a non-negative one alone.
  Nothing here mentions a program: the shapes are literal ranks with symbolic extents.
-/
import Idealize.ShloMosaic.PureOps.Ideal.Laws
import Idealize.ShloMosaic.Lib.ValueIdx

noncomputable section

namespace Cert.ScatterGather

open Idealize.ShloMosaic Idealize.ShloMosaic.ValueIdx

/-! ## Sums scaled by a non-negative real -/

/-- A non-negative real factor distributes over a finite sum of extended reals, whatever the summands (an
    infinite factor, or a negative one, would not: `⊤ · (1 + (−1)) ≠ ⊤ + ⊥`). -/
theorem coe_mul_sum {J : Type} (r : ℝ) (hr : 0 ≤ r) (S : Finset J) (f : J → EReal) :
    (r : EReal) * ∑ j ∈ S, f j = ∑ j ∈ S, (r : EReal) * f j := by
  classical
  induction S using Finset.induction_on with
  | empty => simp
  | insert a s ha ih =>
    rw [Finset.sum_insert ha, Finset.sum_insert ha,
      EReal.left_distrib_of_nonneg_of_ne_top (EReal.coe_nonneg.2 hr) (EReal.coe_ne_top r), ih]

/-- A finite sum of real numbers, summed as extended reals, is the real sum. -/
theorem sum_coe {J : Type} (S : Finset J) (f : J → ℝ) : ∑ j ∈ S, ((f j : ℝ) : EReal) = ((∑ j ∈ S, f j : ℝ) : EReal) := by
  classical
  induction S using Finset.induction_on with
  | empty => simp
  | insert a s ha ih => rw [Finset.sum_insert ha, Finset.sum_insert ha, ih, EReal.coe_add]

/-- THE LAW that joins a sum scaled afterwards to the sum of the scaled terms: with `a` a non-negative real and
    `a · u j = v j` on the index set, `a · (0 + ∑ u) = 0 + ∑ v`. -/
theorem scale_zero_add_sum {J : Type} (S : Finset J) (a : EReal) (u v : J → EReal)
    (ha : ∃ r : ℝ, 0 ≤ r ∧ a = (r : EReal)) (h : ∀ j ∈ S, a * u j = v j) :
    a * (0 + ∑ j ∈ S, u j) = 0 + ∑ j ∈ S, v j := by
  obtain ⟨r, hr, rfl⟩ := ha
  rw [zero_add, zero_add, coe_mul_sum r hr]
  exact Finset.sum_congr rfl h

/-- A count of non-negative real weights, raised to a real power, is a non-negative real: the extended reals'
    power of two reals is the real power, and a real power of a non-negative base is non-negative (at base 0 too). -/
theorem pow_zero_add_sum_nonneg {J : Type} (S : Finset J) (one half : EReal)
    (h1 : ∃ a : ℝ, 0 ≤ a ∧ one = (a : EReal)) (hh : ∃ y : ℝ, half = (y : EReal)) :
    ∃ r : ℝ, 0 ≤ r ∧ Ideal.pow (0 + ∑ _j ∈ S, one) half = (r : EReal) := by
  obtain ⟨a, ha, rfl⟩ := h1
  obtain ⟨y, rfl⟩ := hh
  rw [zero_add, sum_coe S fun _ => a]
  exact ⟨Real.rpow (∑ _j ∈ S, a) y, Real.rpow_nonneg (Finset.sum_nonneg fun _ _ => ha) y, rfl⟩

/-! ## The float words this kind of program spells -/

/-- `1.0` denotes the real 1. -/
theorem ofBits_one : Ideal.ofBits .f32 0x3F800000#32 = ((1 : ℝ) : EReal) := by
  simp [Ideal.ofBits, Ideal.ieee, -EReal.coe_mul]; norm_num

/-- `-0.5` denotes the real −1/2. -/
theorem ofBits_neg_half : Ideal.ofBits .f32 0xBF000000#32 = ((-(1 / 2) : ℝ) : EReal) := by
  simp [Ideal.ofBits, Ideal.ieee, -EReal.coe_mul]; norm_num

/-! ## jnp's wrap of a negative index -/

/-- `select (x < 0) (x + n) x` is `x` when `x`, read signed, is not negative. -/
theorem wrap_of_nonneg (x n : BitVec 32) (h : 0 ≤ x.toInt) :
    Scalar.select (IntOp.cmpi .slt x 0#32) (IntOp.addi x n) x = x := by
  have hs : x.slt 0#32 = false := by
    rw [BitVec.slt]
    have : (0#32 : BitVec 32).toInt = 0 := rfl
    rw [this]
    exact decide_eq_false (by omega)
  show (if BitVec.ofBool (x.slt 0#32) = 1#1 then IntOp.addi x n else x) = x
  rw [hs]
  rfl

/-! ## `x[idx]` of a rank-1 operand -/

/-- The dimension numbers of `x[idx]` for `x : [N]` and `idx : [E]` given as a column `[E, 1]`. -/
abbrev pick1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gather is the operand at the start index `idx[e, 0]`, read signed and clamped into `[0, N − 1]`. -/
theorem gather_pick1_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (pick1 N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (pick1 N E wf).start (ix1 e) idx 0 + (pick1 N E wf).batchCoord (ix1 e) 0 + (pick1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pick1 N E wf).startIndexMap from List.mem_singleton.mpr rfl)]
  have hsi : (pick1 N E wf).siIdx (ix1 e) ⟨List.idxOf (0 : Fin 1) (pick1 N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## `x[idx]` of the rows of a rank-2 operand -/

/-- The dimension numbers of `x[idx]` for `x : [N, C]` and `idx : [E]` given as a column `[E, 1]`: whole rows. -/
abbrev pickRows (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, c)` of the gather is the operand at row `idx[e, 0]` — read signed and clamped into `[0, N − 1]` — and column `c`. -/
theorem gather_pickRows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (pickRows N C E wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (pickRows N C E wf).start (ix2 e c) idx 0 + (pickRows N C E wf).batchCoord (ix2 e c) 0
      + (pickRows N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (pickRows N C E wf).startIndexMap from List.mem_singleton.mpr rfl)]
    have hsi : (pickRows N C E wf).siIdx (ix2 e c) ⟨List.idxOf (0 : Fin 2) (pickRows N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (pickRows N C E wf).start (ix2 e c) idx 1 + (pickRows N C E wf).batchCoord (ix2 e c) 1
      + (pickRows N C E wf).offCoord (ix2 e c) 1 = c.val
    have hs : (pickRows N C E wf).start (ix2 e c) idx 1 = 0 := by
      unfold GatherDims.start
      rw [dif_neg (show ¬ (1 : Fin 2) ∈ (pickRows N C E wf).startIndexMap from
        fun h => absurd (congrArg Fin.val (List.mem_singleton.mp h)) Nat.one_ne_zero)]
    have hk : (1 : Fin 2) ∈ (pickRows N C E wf).sKept :=
      (GatherDims.mem_sKept _ _).mpr
        ⟨fun h => absurd (congrArg Fin.val (List.mem_singleton.mp h)) Nat.one_ne_zero, List.not_mem_nil⟩
    have hoff : ∀ (k : Nat) (hk : k < (pickRows N C E wf).offsetDims.length),
        (pickRows N C E wf).offsetDims[k]'hk = (1 : Fin 2) := by
      intro k hk
      match k, hk with
      | 0, _ => rfl
    rw [hs, GatherDims.batchCoord_eq_zero _ _ _ List.not_mem_nil]
    unfold GatherDims.offCoord
    rw [dif_pos hk]
    show 0 + 0 + ((ix2 e c) ((pickRows N C E wf).offsetDims[List.idxOf (1 : Fin 2) (pickRows N C E wf).sKept]'_)).val = c.val
    rw [hoff, Nat.zero_add]

/-! ## A row scatter: which operand row an update lands on -/

/-- The dimension numbers of `x.at[idx].add(u)` (jax's `segment_sum`) for `x : [N, C]`, `idx : [E]` as a column `[E, 1]`
    and `u : [E, C]`: update row `e` goes, whole, to operand row `idx[e]`. -/
abbrev rowScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update entry that lands on operand entry `i` has, as its start index read signed, `i`'s row: the
    start is not clamped, so it is the row itself, in range. -/
theorem rowScatter_row {N C E w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowScatter N C E wf).resultIdx? j idx = some i) :
    (idx (ix2 (j 0) (0 : Fin 1))).toInt = ((i 0).val : Int) := by
  have hstart : (rowScatter N C E wf).start j idx 0 = (idx (ix2 (j 0) (0 : Fin 1))).toInt := by
    unfold ScatterDims.start
    rw [dif_pos (show (0 : Fin 2) ∈ (rowScatter N C E wf).scatterDimsToOperandDims from List.mem_singleton.mpr rfl)]
    have hsi : (rowScatter N C E wf).siIdx j ⟨List.idxOf (0 : Fin 2) (rowScatter N C E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin : (rowScatter N C E wf).window j 0 = 0 := by
    unfold ScatterDims.window
    rw [dif_neg (show ¬ (0 : Fin 2) ∈ (rowScatter N C E wf).sKept from
      fun h => (of_decide_eq_true (List.mem_filter.mp h).2) (List.mem_singleton.mpr rfl))]
  unfold ScatterDims.resultIdx? at h
  split at h
  · rename_i hh
    have h0 := congrArg (fun f => (f 0).val) (Option.some.inj h)
    have hr := (hh 0).1
    simp only [hstart, hwin] at h0 hr
    omega
  · exact absurd h (by simp)

/-! ## The host's accumulating scatter, at an entry -/

/-- SCALING AFTER the scatter is scaling the updates: at an entry where both operands are zero, a non-negative real
    `a` times the scattered sum of `u` is the scattered sum of `v`, when `a · u j = v j` for every update that lands there
    (same dimension numbers, same indices: the same updates land). -/
theorem scale_hostScatterAdd {s si su : Shape} (d : ScatterDims s si su) {w : Nat} (idx : IVec si w)
    (x x' : s.Idx → EReal) (u v : su.Idx → EReal) (a : EReal) (i : s.Idx) (hx : x i = 0) (hx' : x' i = 0)
    (ha : ∃ r : ℝ, 0 ≤ r ∧ a = (r : EReal)) (h : ∀ j, d.resultIdx? j idx = some i → a * u j = v j) :
    a * Ideal.hostScatterAdd d x idx u i = Ideal.hostScatterAdd d x' idx v i := by
  unfold Ideal.hostScatterAdd
  rw [hx, hx']
  exact scale_zero_add_sum _ a u v ha fun j hj => h j (Finset.mem_filter.mp hj).2

/-- The degree factor is a non-negative real: a scatter of equal non-negative real weights onto zero counts them,
    and the count's real power is a non-negative real. -/
theorem pow_hostScatterAdd_nonneg {s si su : Shape} (d : ScatterDims s si su) {w : Nat} (idx : IVec si w)
    (x : s.Idx → EReal) (u : su.Idx → EReal) (one y : EReal) (i : s.Idx) (hx : x i = 0) (hu : ∀ j, u j = one)
    (h1 : ∃ a : ℝ, 0 ≤ a ∧ one = (a : EReal)) (hy : ∃ r : ℝ, y = (r : EReal)) :
    ∃ r : ℝ, 0 ≤ r ∧ Ideal.pow (Ideal.hostScatterAdd d x idx u i) y = (r : EReal) := by
  unfold Ideal.hostScatterAdd
  rw [hx, Finset.sum_congr rfl fun j _ => hu j]
  exact pow_zero_add_sum_nonneg _ one y h1 hy

end Cert.ScatterGather

end
-- ==== Proof.Bridge.lean ====
/-
  The kernel's result, as one function of the argument arrays, is the reference program's result.

  Both programs read the edge list as destination rows and source columns (each followed by the self loops), count a
  node's degree by scattering ones along the rows, and take d = degree to the power −1/2. The kernel sums, onto row n,
  the projected rows (x·Wᵀ + b)[k] · d[k] of its sources k and scales the sum by d[n] afterwards; the reference sums
  (d[n] · d[k]) · (x·Wᵀ + b)[k] directly. An update that lands on row n has its destination index equal to n, d[n] is a
  non-negative real number, and a non-negative real factor distributes over a finite sum of extended reals, so the two
  agree with no finiteness assumption on the inputs.
-/
import proofs.«153980_j84043920048429_2_alg».proof.Proof.KernelSpec
import proofs.«153980_j84043920048429_2_alg».proof.Proof.LibScatterGather
import proofs.«153980_j84043920048429_2_alg».proof.Proof.Gen.ReferenceIdeal.Read
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx Cert.ScatterGather
open Cert.ReferenceIdeal Cert.ReferenceIdeal.Gen Cert.ReferenceIdeal.Read

/-! ## The two programs' records and index vectors are the same terms -/

/-- The row scatter's dimension numbers: the kernel's record is the reference's. -/
theorem scatter2_eq :
    Cert.KernelIdeal.scatter_S50000x128_S1650000x1_S1650000x128_1_0_0_1
      = scatter_S50000x128_S1650000x1_S1650000x128_1_0_0_1 := rfl

/-- The degree scatter's dimension numbers: the kernel's record is the reference's. -/
theorem scatter1_eq :
    Cert.KernelIdeal.scatter_S50000_S1650000x1_S1650000_n_0_0_1
      = scatter_S50000_S1650000x1_S1650000_n_0_0_1 := rfl

/-- The row gather's dimension numbers: the kernel's record is the reference's. -/
theorem gather2_eq :
    Cert.KernelIdeal.gather_S50000x128_S1650000x1_S1650000x128_1_0_n_n_0_1_1128
      = gather_S50000x128_S1650000x1_S1650000x128_1_0_n_n_0_1_1128 := rfl

section Stages
variable (E : (⟨S2x1600000, .i32⟩ : BufTy).Contents (Elt Ideal))

/-- The destination rows are the reference's rows. -/
theorem rowIdx_eq : Cert.KernelIdeal.Proj.rowIdx E = val_main_v3 (F := Ideal) E := by
  unfold Cert.KernelIdeal.Proj.rowIdx val_main_v3 val_main_v2 val_main_v1 val_main_v0
  rfl

/-- The source columns are the reference's columns. -/
theorem colIdx_eq : Cert.KernelIdeal.Proj.colIdx E = val_main_v6 (F := Ideal) E := by
  unfold Cert.KernelIdeal.Proj.colIdx val_main_v6 val_main_v5 val_main_v4 val_main_v0
  rfl

/-- The degree factor is the reference's. -/
theorem degFactor_eq : Cert.KernelIdeal.Proj.degFactor E = val_main_v16 (F := Ideal) E := by
  unfold Cert.KernelIdeal.Proj.degFactor
  rw [rowIdx_eq, scatter1_eq]
  unfold val_main_v16 val_main_v14 val_main_v15 val_main_v13 val_main_v12 val_main_v11 val_main_cst val_main_cst_0 val_main_cst_1
  rfl

/-! ## The per-row identity, over arbitrary factors and index vectors -/

section Core
variable {N C M : Nat}

/-- A start index read signed and clamped into the operand's rows. -/
abbrev clampRow (hN : 0 < N) (x : BitVec 32) : Fin N := ⟨min x.toInt.toNat (N - 1), by omega⟩

/-- The wrap of a negative index by `Nw`: `x + Nw` when `x`, read signed, is negative, else `x`. -/
abbrev wrapBy (Nw x : BitVec 32) : BitVec 32 := Scalar.select (IntOp.cmpi .slt x 0#32) (IntOp.addi x Nw) x

/-- SCALING ROW n AFTER THE SUM IS SCALING EVERY TERM BEFORE IT. With `D` non-negative reals, the kernel's updates
    `H[k, c] · D[k]` (k the clamped wrapped source) summed onto their destination rows and row n then scaled by `D[n]` are
    the reference's updates `(D[clamp (wrap row)] · D[k]) · H[k, c]` summed onto the same rows: an update that lands on
    row n has destination index n (not negative, so the wrap leaves it alone and the clamp returns n). -/
theorem scaled_rowScatter (hN : 0 < N) (Nw : BitVec 32)
    (wf : ScatterDims.WF ⟨2, ![N, C]⟩ ⟨2, ![M, 1]⟩ ⟨2, ![M, C]⟩ [1] [0] [0] 1)
    (D : (⟨1, ![N]⟩ : Shape).Idx → EReal) (hD : ∀ n, ∃ r : ℝ, 0 ≤ r ∧ D n = (r : EReal))
    (Hm : (⟨2, ![N, C]⟩ : Shape).Idx → EReal)
    (rows : IVec ⟨2, ![M, 1]⟩ 32) (rv wc : Fin M → BitVec 32) (hrv : ∀ e : Fin M, rows (ix2 e (0 : Fin 1)) = rv e)
    (zK zR : (⟨2, ![N, C]⟩ : Shape).Idx → EReal) (hzK : ∀ i, zK i = 0) (hzR : ∀ i, zR i = 0)
    (uK uR : (⟨2, ![M, C]⟩ : Shape).Idx → EReal)
    (hK : ∀ (e : Fin M) (c : Fin C), uK (ix2 e c) = Hm (ix2 (clampRow hN (wc e)) c) * D (ix1 (clampRow hN (wc e))))
    (hR : ∀ (e : Fin M) (c : Fin C), uR (ix2 e c)
      = (D (ix1 (clampRow hN (wrapBy Nw (rv e)))) * D (ix1 (clampRow hN (wc e)))) * Hm (ix2 (clampRow hN (wc e)) c))
    (i : (⟨2, ![N, C]⟩ : Shape).Idx) :
    D (ix1 (i 0)) * Ideal.hostScatterAdd (rowScatter N C M wf) zK rows uK i
      = Ideal.hostScatterAdd (rowScatter N C M wf) zR rows uR i := by
  refine scale_hostScatterAdd (rowScatter N C M wf) rows zK zR uK uR (D (ix1 (i 0))) i (hzK i) (hzR i) (hD _) ?_
  intro j hj
  have hrow := rowScatter_row wf rows j i hj
  obtain ⟨e, c, rfl⟩ : ∃ (e : Fin M) (c : Fin C), j = ix2 e c := ⟨j 0, j 1, eq_ix2 j⟩
  have hr : (rv e).toInt = ((i 0).val : Int) := by rw [← hrv e]; exact hrow
  have hnn : 0 ≤ (rv e).toInt := by rw [hr]; exact Int.natCast_nonneg _
  have hw : wrapBy Nw (rv e) = rv e := wrap_of_nonneg _ _ hnn
  have hcl : clampRow hN (wrapBy Nw (rv e)) = i 0 := by
    rw [hw]
    apply Fin.ext
    show min (rv e).toInt.toNat (N - 1) = (i 0).val
    rw [hr, Int.toNat_natCast]
    have := idx2_lt0 i
    omega
  rw [hK, hR, hcl, mul_comm (Hm _) (D _), mul_assoc]

end Core

section Clamp
variable {α : Type} {N C M w : Nat}

/-- `x[idx]` of a rank-1 operand, the clamped start index named. -/
theorem gather_pick1_clamp (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ 32) (e : Fin M) :
    Host.gather (pick1 N M wf) x idx (ix1 e) = x (ix1 (clampRow hN (idx (ix2 e (0 : Fin 1))))) :=
  gather_pick1_apply hN wf x idx e

/-- `x[idx]` of the rows of a rank-2 operand, the clamped start index named. -/
theorem gather_pickRows_clamp (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ 32) (e : Fin M) (c : Fin C) :
    Host.gather (pickRows N C M wf) x idx (ix2 e c) = x (ix2 (clampRow hN (idx (ix2 e (0 : Fin 1)))) c) :=
  gather_pickRows_apply hN wf x idx e c

end Clamp

/-! ## The reference's stages read at an index -/

section Reads
variable (X : (⟨S50000x256, .f32⟩ : BufTy).Contents (Elt Ideal)) (Wt : (⟨S128x256, .f32⟩ : BufTy).Contents (Elt Ideal))
  (B : (⟨S128, .f32⟩ : BufTy).Contents (Elt Ideal))

/-- Node n's projected features plus the bias. -/
theorem proj_apply (n : Fin 50000) (c : Fin 128) :
    val_main_v10 (F := Ideal) X Wt B (ix2 n c) = (∑ k : Fin 256, X (ix2 n k) * Wt (ix2 c k)) + B (ix1 c) := by
  rw [val_main_v10_apply, val_main_v7_apply, val_main_v9_apply, val_main_v8_apply]
  have hl : ∀ k : Fin 256, lidx_main_v7 (ix2 n c) k = ix2 n k := fun k => funext fun a => by
    match a with
    | ⟨0, _⟩ => rfl
    | ⟨1, _⟩ => rfl
  have hr : ∀ k : Fin 256, ridx_main_v7 (ix2 n c) k = ix2 c k := fun k => funext fun a => by
    match a with
    | ⟨0, _⟩ => rfl
    | ⟨1, _⟩ => rfl
  have hb : idx_main_v8 (idx_main_v9 (ix2 n c)) = ix1 c := funext fun a => by
    match a with
    | ⟨0, _⟩ => rfl
  rw [hb, Finset.sum_congr rfl fun k _ => by rw [hl k, hr k]]
  rfl

/-- The index column of a vector, at row e, is the vector at e. -/
theorem col_idx (e : Fin 1650000) : idx_main_v22 (ix2 e (0 : Fin 1)) = ix1 e := funext fun a => by
  match a with
  | ⟨0, _⟩ => rfl

/-- The reference's wrapped destination rows, as a column. -/
theorem v22_at (e : Fin 1650000) :
    val_main_v22 (F := Ideal) E (ix2 e (0 : Fin 1)) = wrapBy 50000#32 (val_main_v3 (F := Ideal) E (ix1 e)) := by
  rw [val_main_v22_apply, col_idx, val_main_v21_apply, val_main_v18_apply, val_main_v20_apply, val_main_v17_apply,
    val_main_v19_apply, val_main_c_apply, val_main_c_2_apply]

/-- The reference's wrapped source columns, as a column (the degree gather's). -/
theorem v29_at (e : Fin 1650000) :
    val_main_v29 (F := Ideal) E (ix2 e (0 : Fin 1)) = wrapBy 50000#32 (val_main_v6 (F := Ideal) E (ix1 e)) := by
  rw [val_main_v29_apply, show idx_main_v29 (ix2 e (0 : Fin 1)) = ix1 e from col_idx e, val_main_v28_apply,
    val_main_v25_apply, val_main_v27_apply, val_main_v24_apply, val_main_v26_apply, val_main_c_3_apply, val_main_c_4_apply]

/-- The reference's wrapped source columns, as a column (the row gather's). -/
theorem v38_at (e : Fin 1650000) :
    val_main_v38 (F := Ideal) E (ix2 e (0 : Fin 1)) = wrapBy 50000#32 (val_main_v6 (F := Ideal) E (ix1 e)) := by
  rw [val_main_v38_apply, show idx_main_v38 (ix2 e (0 : Fin 1)) = ix1 e from col_idx e, val_main_v37_apply,
    val_main_v34_apply, val_main_v36_apply, val_main_v33_apply, val_main_v35_apply, val_main_c_5_apply, val_main_c_6_apply]

/-- The scatters' index column is the destination rows. -/
theorem v43_at (e : Fin 1650000) :
    val_main_v43 (F := Ideal) E (ix2 e (0 : Fin 1)) = val_main_v3 (F := Ideal) E (ix1 e) := by
  rw [val_main_v43_apply, show idx_main_v43 (ix2 e (0 : Fin 1)) = ix1 e from col_idx e]

/-- The degree gather's dimension numbers are `x[idx]` of a rank-1 operand. -/
theorem gather1_pick : gather_S50000_S1650000x1_S1650000_n_0_n_n_0_1_1
    = pick1 50000 1650000 gather_S50000_S1650000x1_S1650000_n_0_n_n_0_1_1_wf := rfl

/-- The row gather's dimension numbers are `x[idx]` of the rows of a rank-2 operand. -/
theorem gather2_pick : gather_S50000x128_S1650000x1_S1650000x128_1_0_n_n_0_1_1128
    = pickRows 50000 128 1650000 gather_S50000x128_S1650000x1_S1650000x128_1_0_n_n_0_1_1128_wf := rfl

/-- The row scatter's dimension numbers are a row scatter's. -/
theorem scatter2_row : scatter_S50000x128_S1650000x1_S1650000x128_1_0_0_1
    = rowScatter 50000 128 1650000 scatter_S50000x128_S1650000x1_S1650000x128_1_0_0_1_wf := rfl

/-- There is at least one node. -/
theorem pos50000 : 0 < 50000 := by omega

/-- The factor gathered at the destination rows. -/
theorem v23_at (e : Fin 1650000) :
    val_main_v23 (F := Ideal) E (ix1 e)
      = val_main_v16 (F := Ideal) E (ix1 (clampRow pos50000 (wrapBy 50000#32 (val_main_v3 (F := Ideal) E (ix1 e))))) := by
  unfold val_main_v23
  rw [gather1_pick]
  refine (gather_pick1_clamp pos50000 _ (val_main_v16 (F := Ideal) E) (val_main_v22 (F := Ideal) E) e).trans ?_
  rw [v22_at]

/-- The factor gathered at the source columns. -/
theorem v30_at (e : Fin 1650000) :
    val_main_v30 (F := Ideal) E (ix1 e)
      = val_main_v16 (F := Ideal) E (ix1 (clampRow pos50000 (wrapBy 50000#32 (val_main_v6 (F := Ideal) E (ix1 e))))) := by
  unfold val_main_v30
  rw [gather1_pick]
  refine (gather_pick1_clamp pos50000 _ (val_main_v16 (F := Ideal) E) (val_main_v29 (F := Ideal) E) e).trans ?_
  rw [v29_at]

/-- The projected rows gathered at the source columns. -/
theorem v39_at (e : Fin 1650000) (c : Fin 128) :
    val_main_v39 (F := Ideal) X E Wt B (ix2 e c)
      = val_main_v10 (F := Ideal) X Wt B (ix2 (clampRow pos50000 (wrapBy 50000#32 (val_main_v6 (F := Ideal) E (ix1 e)))) c) := by
  unfold val_main_v39
  rw [gather2_pick]
  refine (gather_pickRows_clamp pos50000 _ (val_main_v10 (F := Ideal) X Wt B) (val_main_v38 (F := Ideal) E) e c).trans ?_
  rw [v38_at]

/-- THE REFERENCE'S UPDATE at (e, c): the two gathered factors' product times the gathered projected entry. -/
theorem v41_at (e : Fin 1650000) (c : Fin 128) :
    val_main_v41 (F := Ideal) X E Wt B (ix2 e c)
      = (val_main_v16 (F := Ideal) E (ix1 (clampRow pos50000 (wrapBy 50000#32 (val_main_v3 (F := Ideal) E (ix1 e)))))
          * val_main_v16 (F := Ideal) E (ix1 (clampRow pos50000 (wrapBy 50000#32 (val_main_v6 (F := Ideal) E (ix1 e))))))
        * val_main_v10 (F := Ideal) X Wt B (ix2 (clampRow pos50000 (wrapBy 50000#32 (val_main_v6 (F := Ideal) E (ix1 e)))) c) := by
  have h1 : idx_main_v32 (idx_main_v40 (ix2 e c)) = ix1 e := funext fun a => by
    match a with
    | ⟨0, _⟩ => rfl
  rw [val_main_v41_apply, val_main_v40_apply, val_main_v32_apply, h1, val_main_v31_apply, v23_at, v30_at, v39_at]
  rfl

end Reads

/-- At the extended reals the host's accumulating scatter is the sum. -/
theorem scatterAdd_ideal {s si u : Shape} {w : Nat} {φ : FTy} (d : ScatterDims s si u) (x : FVec Ideal s φ) (idx : IVec si w)
    (upd : FVec Ideal u φ) : Host.scatterAdd d x idx upd = Ideal.hostScatterAdd d x idx upd := rfl

/-! ## The degree factor is a non-negative real -/

/-- A node's factor is a count of ones (each the real 1) onto zero, to the real power −1/2: a non-negative real. -/
theorem deg_nonneg (n : S50000.Idx) : ∃ r : ℝ, 0 ≤ r ∧ val_main_v16 (F := Ideal) E n = (r : EReal) := by
  have h12 : val_main_v12 (F := Ideal) n = 0 := by
    rw [val_main_v12_apply, val_main_cst_0_apply, Ideal.ofBits_def]
    exact Ideal.ofBits_zero_f32
  have h11 : ∀ j, val_main_v11 (F := Ideal) j = Ideal.ofBits .f32 0x3F800000#32 := fun j => by
    rw [val_main_v11_apply, val_main_cst_apply, Ideal.ofBits_def]
  have h15 : ∃ y : ℝ, val_main_v15 (F := Ideal) n = (y : EReal) := by
    rw [val_main_v15_apply, val_main_cst_1_apply, Ideal.ofBits_def]
    exact ⟨_, ofBits_neg_half⟩
  have key := pow_hostScatterAdd_nonneg scatter_S50000_S1650000x1_S1650000_n_0_0_1 (val_main_v13 (F := Ideal) E)
    (val_main_v12 (F := Ideal)) (val_main_v11 (F := Ideal)) (Ideal.ofBits .f32 0x3F800000#32) (val_main_v15 (F := Ideal) n) n
    h12 h11 ⟨1, zero_le_one, ofBits_one⟩ h15
  rw [val_main_v16_apply, Ideal.hostPowf_def]
  unfold val_main_v14
  rw [scatterAdd_ideal]
  exact key

/-! ## The kernel's stages read at an index -/

/-- The factor broadcast along a row, at (n, c), is the factor at n. -/
theorem bcastD_at (D : S50000.Idx → EReal) (i : S50000x128.Idx) :
    broadcastInDim Cert.KernelIdeal.S50000x128 ![0, 1] Cert.KernelIdeal.Gen.bcast_S50000x1_S50000x128_0_1
      (broadcastInDim Cert.KernelIdeal.S50000x1 ![0] Cert.KernelIdeal.Gen.bcast_S50000_S50000x1_0 D) i = D (ix1 (i 0)) := by
  refine (broadcastInDim_apply _ Cert.KernelIdeal.Gen.bcast_S50000x1_S50000x128_0_1 _ i (ix2 (i 0) (0 : Fin 1)) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])).trans ?_
  exact broadcastInDim_apply _ Cert.KernelIdeal.Gen.bcast_S50000_S50000x1_0 D (ix2 (i 0) (0 : Fin 1)) (ix1 (i 0)) (fun a => match a with
    | ⟨0, _⟩ => by show (i 0).val = if (50000 : Nat) = 1 then 0 else (i 0).val; rw [if_neg (by decide)])

/-- The factors as a column, at row k. -/
theorem degColumn_at (k : Fin 50000) :
    Cert.KernelIdeal.Proj.degColumn E (ix2 k (0 : Fin 1)) = val_main_v16 (F := Ideal) E (ix1 k) := by
  unfold Cert.KernelIdeal.Proj.degColumn
  rw [degFactor_eq]
  exact shapeCast_apply (val_main_v16 (F := Ideal) E) Cert.KernelIdeal.Gen.shapeCasts_S50000_S50000x1 (ix2 k (0 : Fin 1)) (ix1 k)
    (by rewrite [Shape.rowMajor_val_one, Shape.rowMajor_val_two]; show k.val = k.val * 1 + 0; omega)

section KernelReads
variable (X : (⟨S50000x256, .f32⟩ : BufTy).Contents (Elt Ideal)) (Wt : (⟨S128x256, .f32⟩ : BufTy).Contents (Elt Ideal))
  (B : (⟨S128, .f32⟩ : BufTy).Contents (Elt Ideal))

/-- The region's result at (k, c): the reference's projected entry times the factor at k. -/
theorem scaledProj_at (k : Fin 50000) (c : Fin 128) :
    Cert.KernelIdeal.Proj.scaledProj X Wt B (Cert.KernelIdeal.Proj.degColumn E) (ix2 k c)
      = val_main_v10 (F := Ideal) X Wt B (ix2 k c) * val_main_v16 (F := Ideal) E (ix1 k) := by
  rw [proj_apply, ← degColumn_at]
  rfl

/-- The kernel's wrapped source columns, as a column, are the reference's. -/
theorem wrapCol_eq :
    broadcastInDim Cert.KernelIdeal.S1650000x1 ![0] Cert.KernelIdeal.Gen.bcast_S1650000_S1650000x1_0
        (select
          (cmpi .slt (Cert.KernelIdeal.Proj.colIdx E)
            (broadcastInDim Cert.KernelIdeal.S1650000 ![] Cert.KernelIdeal.Gen.bcast_S_S1650000 (constantI Cert.KernelIdeal.S_ 32 0#32)))
          (addi (Cert.KernelIdeal.Proj.colIdx E)
            (broadcastInDim Cert.KernelIdeal.S1650000 ![] Cert.KernelIdeal.Gen.bcast_S_S1650000 (constantI Cert.KernelIdeal.S_ 32 50000#32)))
          (Cert.KernelIdeal.Proj.colIdx E))
      = val_main_v29 (F := Ideal) E := by
  rw [colIdx_eq]
  unfold val_main_v29 val_main_v28 val_main_v25 val_main_v27 val_main_v24 val_main_v26 val_main_c_3 val_main_c_4
  rfl

/-- The scatters' index column: the kernel's is the reference's. -/
theorem rowCol_eq :
    broadcastInDim Cert.KernelIdeal.S1650000x1 ![0] Cert.KernelIdeal.Gen.bcast_S1650000_S1650000x1_0 (Cert.KernelIdeal.Proj.rowIdx E)
      = val_main_v43 (F := Ideal) E := by
  rw [rowIdx_eq]
  unfold val_main_v43
  rfl

/-- The scatter's zero operand: the kernel's is the reference's. -/
theorem zero_eq :
    broadcastInDim Cert.KernelIdeal.S50000x128 ![] Cert.KernelIdeal.Gen.bcast_S_S50000x128
        (constant (F := Ideal) Cert.KernelIdeal.S_ .f32 0x00000000#32)
      = val_main_v42 (F := Ideal) := by
  unfold val_main_v42 val_main_cst_7
  rfl

/-- The scatter's zero operand reads 0 everywhere. -/
theorem v42_at (i : S50000x128.Idx) : val_main_v42 (F := Ideal) i = 0 := by
  rw [val_main_v42_apply, val_main_cst_7_apply, Ideal.ofBits_def]
  exact Ideal.ofBits_zero_f32

/-- THE KERNEL'S UPDATE at (e, c): the projected entry of the clamped wrapped source times the source's factor. -/
theorem updK_at (e : Fin 1650000) (c : Fin 128) :
    Host.gather gather_S50000x128_S1650000x1_S1650000x128_1_0_n_n_0_1_1128
        (Cert.KernelIdeal.Proj.scaledProj X Wt B (Cert.KernelIdeal.Proj.degColumn E)) (val_main_v29 (F := Ideal) E) (ix2 e c)
      = val_main_v10 (F := Ideal) X Wt B (ix2 (clampRow pos50000 (wrapBy 50000#32 (val_main_v6 (F := Ideal) E (ix1 e)))) c)
        * val_main_v16 (F := Ideal) E (ix1 (clampRow pos50000 (wrapBy 50000#32 (val_main_v6 (F := Ideal) E (ix1 e))))) := by
  rw [gather2_pick]
  refine (gather_pickRows_clamp pos50000 _ (Cert.KernelIdeal.Proj.scaledProj X Wt B (Cert.KernelIdeal.Proj.degColumn E))
    (val_main_v29 (F := Ideal) E) e c).trans ?_
  rw [v29_at, scaledProj_at]

end KernelReads

end Stages

/-! ## The kernel's result is the reference's -/

/-- THE BRIDGE: the kernel's result, as one function of x, the edge list, W and b, is the reference program's result. -/
theorem kernelOut_eq_reference
    (X : (⟨Cert.KernelIdeal.S50000x256, .f32⟩ : BufTy).Contents (Elt Ideal)) (E : (⟨Cert.KernelIdeal.S2x1600000, .i32⟩ : BufTy).Contents (Elt Ideal))
    (Wt : (⟨Cert.KernelIdeal.S128x256, .f32⟩ : BufTy).Contents (Elt Ideal)) (B : (⟨Cert.KernelIdeal.S128, .f32⟩ : BufTy).Contents (Elt Ideal)) :
    Cert.KernelIdeal.Proj.kernelOut E X Wt B = Cert.ReferenceIdeal.Read.val_main_v44 (F := Ideal) X E Wt B := by
  funext i
  unfold Cert.KernelIdeal.Proj.kernelOut Cert.KernelIdeal.Proj.aggregate
  rw [mulf_apply, scatterAdd_ideal, degFactor_eq, rowCol_eq, wrapCol_eq, zero_eq, scatter2_eq, gather2_eq, bcastD_at]
  unfold val_main_v44
  rw [scatterAdd_ideal, scatter2_row]
  have hK : ∀ (e : Fin 1650000) (c : Fin 128),
      (extf (φ := .bf16) .f32
          (Host.gather gather_S50000x128_S1650000x1_S1650000x128_1_0_n_n_0_1_1128
            (Cert.KernelIdeal.Proj.scaledProj X Wt B (Cert.KernelIdeal.Proj.degColumn E)) (val_main_v29 (F := Ideal) E))
          Cert.KernelIdeal.Gen.bitsLt_bf16_f32 : FVec Ideal S1650000x128 .f32) (ix2 e c)
        = val_main_v10 (F := Ideal) X Wt B (ix2 (clampRow pos50000 (wrapBy 50000#32 (val_main_v6 (F := Ideal) E (ix1 e)))) c)
          * val_main_v16 (F := Ideal) E (ix1 (clampRow pos50000 (wrapBy 50000#32 (val_main_v6 (F := Ideal) E (ix1 e))))) :=
    fun e c => (extf_apply (φ := .bf16) (ψ := .f32) _ Cert.KernelIdeal.Gen.bitsLt_bf16_f32 _).trans (updK_at E X Wt B e c)
  exact scaled_rowScatter pos50000 50000#32 _ (val_main_v16 (F := Ideal) E) (deg_nonneg E) (val_main_v10 (F := Ideal) X Wt B)
    (val_main_v43 (F := Ideal) E) (fun e => val_main_v3 (F := Ideal) E (ix1 e))
    (fun e => wrapBy 50000#32 (val_main_v6 (F := Ideal) E (ix1 e))) (v43_at E)
    (val_main_v42 (F := Ideal)) (val_main_v42 (F := Ideal)) v42_at v42_at _ _ hK (v41_at E X Wt B) i

end Cert.Bridge

end
-- ==== Proof.lean ====
/-
  A graph-convolution layer on N = 50000 nodes: out[i] = ∑ over the edges e with row[e] = i (every node's self loop
  included) of d[row e] · d[col e] · h[col e], where h = x · Wᵀ + b and d = degree^(−1/2).

  The reference computes exactly that. The kernel moves the factor d[row e] = d[i] out of the sum: its region computes
  h' = d · h node by node (ten blocks of 5000 nodes), the host lines after it sum h'[col e] onto row[e] and scale row i
  by d[i]. At the extended reals the two agree with NO assumption on the inputs: d[i] is a non-negative real (a real
  power of a count), and a non-negative real factor distributes over any finite sum of extended reals; an update that
  lands on row i has row e = i exactly (a scatter does not clamp its index), so the reference's gathered d[row e] is
  d[i]; the rest is commutativity and associativity of the product. Changes of float format are the identity there.

  `KernelSpec` writes the kernel's result as one function `kernelOut` of the four arguments; `KernelBlock`, `KernelReads`
  and `KernelArray` show the region leaves `scaledProj`; `KernelTail` that the program's run ends at `kernelOut`;
  `Bridge` that `kernelOut` is the reference's last stage; `LibScatterGather` holds the general lemmas on scaled sums,
  gathers and scatters. The three frames are the generated ones (the reference's is its run with the result dropped),
  and the idealization rewrote nothing.
-/
import proofs.«153980_j84043920048429_2_alg».proof.Defs
import proofs.«153980_j84043920048429_2_alg».proof.Proof.Gen.Kernel
import proofs.«153980_j84043920048429_2_alg».proof.Proof.Gen.Kernel.Skeleton
import proofs.«153980_j84043920048429_2_alg».proof.Proof.Gen.Kernel.Launch
import proofs.«153980_j84043920048429_2_alg».proof.Proof.Gen.Kernel.Points
import proofs.«153980_j84043920048429_2_alg».proof.Proof.Gen.Kernel.Frame
import proofs.«153980_j84043920048429_2_alg».proof.Proof.Gen.KernelIdeal
import proofs.«153980_j84043920048429_2_alg».proof.Proof.Gen.KernelIdeal.Skeleton
import proofs.«153980_j84043920048429_2_alg».proof.Proof.Gen.KernelIdeal.Launch
import proofs.«153980_j84043920048429_2_alg».proof.Proof.Gen.KernelIdeal.Points
import proofs.«153980_j84043920048429_2_alg».proof.Proof.Gen.KernelIdeal.Frame
import proofs.«153980_j84043920048429_2_alg».proof.Proof.Gen.ReferenceIdeal
import proofs.«153980_j84043920048429_2_alg».proof.Proof.Gen.Pre_finite_inputs
import proofs.«153980_j84043920048429_2_alg».proof.Proof.Gen.ReferenceIdeal.Run
import proofs.«153980_j84043920048429_2_alg».proof.Proof.Gen.ReferenceIdeal.Read
import proofs.«153980_j84043920048429_2_alg».proof.Proof.KernelTail
import proofs.«153980_j84043920048429_2_alg».proof.Proof.Bridge
import Idealize.ShloMosaic.Adequacy
import Idealize.ShloMosaic.Init

noncomputable section

namespace Cert.Proof.Claims

open Idealize.ShloMosaic Idealize.ShloMosaic.TcCoe Idealize.SL.Sem

/-- The word-level kernel runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs, from memories that agree on the four arguments, end with the same result: the kernel's
    run ends at `kernelOut` of its arguments, the reference's at its last stage of the same arguments, and the two
    are one function. -/
theorem algebraic : Cert.algebraic_KernelIdeal_ReferenceIdeal := by
  intro m ρ m' ρ' _ hagree
  refine ⟨fun c => Cert.KernelIdeal.Proj.kernelOut
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Proj.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq m' c, (hagree c).1, (hagree c).2.1, (hagree c).2.2.1, (hagree c).2.2.2]
  exact (Cert.Bridge.kernelOut_eq_reference _ _ _ _).symm

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
